-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v90) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1000 : Shape := ⟨2, ![10000, 1000]⟩
abbrev S2x160000 : Shape := ⟨2, ![2, 160000]⟩
abbrev S1000x256 : Shape := ⟨2, ![1000, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S10000x1000 : S_.BroadcastsInDim S10000x1000 (![] : Fin 0 → Fin S10000x1000.rank)
  reducesTo_S10000x1000_S_d0_1 : S10000x1000.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S10000x1000 .f32) (main_arg1 : IVec S2x160000 32) (main_arg2 : FVec F S1000x256 .f32) (main_arg3 : FVec F S256 .f32) (main_arg4 : FVec F S256x2 .f32) (main_arg5 : FVec F S2 .f32) : IVec S_ 1 :=
  let main_v0 : FVec F S10000x1000 .f32 := Host.absf main_arg0
  let main_cst : FVec F S_ .f32 := constant S_ .f32 0x7F800000#32
  let main_v1 : FVec F S10000x1000 .f32 := broadcastInDim S10000x1000 ![] bcast_S_S10000x1000 main_cst
  let main_v2 : IVec S10000x1000 1 := cmpf .olt main_v0 main_v1
  let main_c : IVec S_ 1 := constantI S_ 1 1#1
  let main_v3 : IVec S_ 1 := (fun x v => Host.reduce IntOp.andi x v reducesTo_S10000x1000_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2 .f32 := Host.absf main_arg4
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg5 main_v13 main_v16
-- ==== Kernel.lean ====
abbrev S10000x1000 : Shape := ⟨2, ![10000, 1000]⟩
abbrev S2x160000 : Shape := ⟨2, ![2, 160000]⟩
abbrev S1000x256 : Shape := ⟨2, ![1000, 256]⟩
abbrev S256 : Shape := ⟨1, ![256]⟩
abbrev S256x2 : Shape := ⟨2, ![256, 2]⟩
abbrev S2 : Shape := ⟨1, ![2]⟩
abbrev S1x160000 : Shape := ⟨2, ![1, 160000]⟩
abbrev S160000 : Shape := ⟨1, ![160000]⟩
abbrev S10000x256 : Shape := ⟨2, ![10000, 256]⟩
abbrev S1000x1000 : Shape := ⟨2, ![1000, 1000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S170000x256 : Shape := ⟨2, ![170000, 256]⟩
abbrev S1x256 : Shape := ⟨2, ![1, 256]⟩
abbrev S10000x2 : Shape := ⟨2, ![10000, 2]⟩
abbrev S170000x2 : Shape := ⟨2, ![170000, 2]⟩
abbrev S1x2 : Shape := ⟨2, ![1, 2]⟩
abbrev S2x10000 : Shape := ⟨2, ![2, 10000]⟩
abbrev S10000x10000 : Shape := ⟨2, ![10000, 10000]⟩
abbrev S200x2 : Shape := ⟨2, ![200, 2]⟩
abbrev S200x10000 : Shape := ⟨2, ![200, 10000]⟩
abbrev S200x1 : Shape := ⟨2, ![200, 1]⟩
abbrev S1x10000 : Shape := ⟨2, ![1, 10000]⟩

abbrev nBuf : Space → Nat
  | .hbm => 119
  | .vmem => 10
  | .smem => 0
  | _ => 0

abbrev bufTy : (tb : Table) → Fin (tcTables nBuf tb) → BufTy
  | .hbm, ⟨0, _⟩ => ⟨S10000x1000, .f32⟩
  | .hbm, ⟨1, _⟩ => ⟨S2x160000, .i32⟩
  | .hbm, ⟨2, _⟩ => ⟨S1000x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S10000x256, .f32⟩
  | .hbm, ⟨11, _⟩ => ⟨S10000, .i32⟩
  | .hbm, ⟨12, _⟩ => ⟨S170000, .i32⟩
  | .hbm, ⟨13, _⟩ => ⟨S170000, .i32⟩
  | .hbm, ⟨14, _⟩ => ⟨S_, .f32⟩
  | .hbm, ⟨15, _⟩ => ⟨S170000, .f32⟩
  | .hbm, ⟨16, _⟩ => ⟨S_, .f32⟩
  | .hbm, ⟨17, _⟩ => ⟨S10000, .f32⟩
  | .hbm, ⟨18, _⟩ => ⟨S170000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S10000, .f32⟩
  | .hbm, ⟨24, _⟩ => ⟨S_, .i32⟩
  | .hbm, ⟨25, _⟩ => ⟨S170000, .i32⟩
  | .hbm, ⟨26, _⟩ => ⟨S170000, .i1⟩
  | .hbm, ⟨27, _⟩ => ⟨S_, .i32⟩
  | .hbm, ⟨28, _⟩ => ⟨S170000, .i32⟩
  | .hbm, ⟨29, _⟩ => ⟨S170000, .i32⟩
  | .hbm, ⟨30, _⟩ => ⟨S170000, .i32⟩
  | .hbm, ⟨31, _⟩ => ⟨S170000x1, .i32⟩
  | .hbm, ⟨32, _⟩ => ⟨S170000, .f32⟩
  | .hbm, ⟨33, _⟩ => ⟨S_, .i32⟩
  | .hbm, ⟨34, _⟩ => ⟨S170000, .i32⟩
  | .hbm, ⟨35, _⟩ => ⟨S170000, .i1⟩
  | .hbm, ⟨36, _⟩ => ⟨S_, .i32⟩
  | .hbm, ⟨37, _⟩ => ⟨S170000, .i32⟩
  | .hbm, ⟨38, _⟩ => ⟨S170000, .i32⟩
  | .hbm, ⟨39, _⟩ => ⟨S170000, .i32⟩
  | .hbm, ⟨40, _⟩ => ⟨S170000x1, .i32⟩
  | .hbm, ⟨41, _⟩ => ⟨S170000, .f32⟩
  | .hbm, ⟨42, _⟩ => ⟨S170000, .f32⟩
  | .hbm, ⟨43, _⟩ => ⟨S_, .i32⟩
  | .hbm, ⟨44, _⟩ => ⟨S170000, .i32⟩
  | .hbm, ⟨45, _⟩ => ⟨S170000, .i1⟩
  | .hbm, ⟨46, _⟩ => ⟨S_, .i32⟩
  | .hbm, ⟨47, _⟩ => ⟨S170000, .i32⟩
  | .hbm, ⟨48, _⟩ => ⟨S170000, .i32⟩
  | .hbm, ⟨49, _⟩ => ⟨S170000, .i32⟩
  | .hbm, ⟨50, _⟩ => ⟨S170000x1, .i32⟩
  | .hbm, ⟨51, _⟩ => ⟨S170000x256, .f32⟩
  | .hbm, ⟨52, _⟩ => ⟨S170000x1, .f32⟩
  | .hbm, ⟨53, _⟩ => ⟨S170000x256, .f32⟩
  | .hbm, ⟨54, _⟩ => ⟨S170000x256, .f32⟩
  | .hbm, ⟨55, _⟩ => ⟨S_, .f32⟩
  | .hbm, ⟨56, _⟩ => ⟨S10000x256, .f32⟩
  | .hbm, ⟨57, _⟩ => ⟨S170000x1, .i32⟩
  | .hbm, ⟨58, _⟩ => ⟨S10000x256, .f32⟩
  | .hbm, ⟨59, _⟩ => ⟨S1x256, .f32⟩
  | .hbm, ⟨60, _⟩ => ⟨S10000x256, .f32⟩
  | .hbm, ⟨61, _⟩ => ⟨S10000x256, .f32⟩
  | .hbm, ⟨62, _⟩ => ⟨S_, .f32⟩
  | .hbm, ⟨63, _⟩ => ⟨S10000x256, .f32⟩
  | .hbm, ⟨64, _⟩ => ⟨S10000x256, .f32⟩
  | .hbm, ⟨65, _⟩ => ⟨S10000x2, .f32⟩
  | .hbm, ⟨66, _⟩ => ⟨S10000, .i32⟩
  | .hbm, ⟨67, _⟩ => ⟨S170000, .i32⟩
  | .hbm, ⟨68, _⟩ => ⟨S170000, .i32⟩
  | .hbm, ⟨69, _⟩ => ⟨S_, .f32⟩
  | .hbm, ⟨70, _⟩ => ⟨S170000, .f32⟩
  | .hbm, ⟨71, _⟩ => ⟨S_, .f32⟩
  | .hbm, ⟨72, _⟩ => ⟨S10000, .f32⟩
  | .hbm, ⟨73, _⟩ => ⟨S170000x1, .i32⟩
  | .hbm, ⟨74, _⟩ => ⟨S10000, .f32⟩
  | .hbm, ⟨75, _⟩ => ⟨S_, .f32⟩
  | .hbm, ⟨76, _⟩ => ⟨S10000, .f32⟩
  | .hbm, ⟨77, _⟩ => ⟨S10000, .f32⟩
  | .hbm, ⟨78, _⟩ => ⟨S10000, .f32⟩
  | .hbm, ⟨79, _⟩ => ⟨S_, .i32⟩
  | .hbm, ⟨80, _⟩ => ⟨S170000, .i32⟩
  | .hbm, ⟨81, _⟩ => ⟨S170000, .i1⟩
  | .hbm, ⟨82, _⟩ => ⟨S_, .i32⟩
  | .hbm, ⟨83, _⟩ => ⟨S170000, .i32⟩
  | .hbm, ⟨84, _⟩ => ⟨S170000, .i32⟩
  | .hbm, ⟨85, _⟩ => ⟨S170000, .i32⟩
  | .hbm, ⟨86, _⟩ => ⟨S170000x1, .i32⟩
  | .hbm, ⟨87, _⟩ => ⟨S170000, .f32⟩
  | .hbm, ⟨88, _⟩ => ⟨S_, .i32⟩
  | .hbm, ⟨89, _⟩ => ⟨S170000, .i32⟩
  | .hbm, ⟨90, _⟩ => ⟨S170000, .i1⟩
  | .hbm, ⟨91, _⟩ => ⟨S_, .i32⟩
  | .hbm, ⟨92, _⟩ => ⟨S170000, .i32⟩
  | .hbm, ⟨93, _⟩ => ⟨S170000, .i32⟩
  | .hbm, ⟨94, _⟩ => ⟨S170000, .i32⟩
  | .hbm, ⟨95, _⟩ => ⟨S170000x1, .i32⟩
  | .hbm, ⟨96, _⟩ => ⟨S170000, .f32⟩
  | .hbm, ⟨97, _⟩ => ⟨S170000, .f32⟩
  | .hbm, ⟨98, _⟩ => ⟨S_, .i32⟩
  | .hbm, ⟨99, _⟩ => ⟨S170000, .i32⟩
  | .hbm, ⟨100, _⟩ => ⟨S170000, .i1⟩
  | .hbm, ⟨101, _⟩ => ⟨S_, .i32⟩
  | .hbm, ⟨102, _⟩ => ⟨S170000, .i32⟩
  | .hbm, ⟨103, _⟩ => ⟨S170000, .i32⟩
  | .hbm, ⟨104, _⟩ => ⟨S170000, .i32⟩
  | .hbm, ⟨105, _⟩ => ⟨S170000x1, .i32⟩
  | .hbm, ⟨106, _⟩ => ⟨S170000x2, .f32⟩
  | .hbm, ⟨107, _⟩ => ⟨S170000x1, .f32⟩
  | .hbm, ⟨108, _⟩ => ⟨S170000x2, .f32⟩
  | .hbm, ⟨109, _⟩ => ⟨S170000x2, .f32⟩
  | .hbm, ⟨110, _⟩ => ⟨S_, .f32⟩
  | .hbm, ⟨111, _⟩ => ⟨S10000x2, .f32⟩
  | .hbm, ⟨112, _⟩ => ⟨S170000x1, .i32⟩
  | .hbm, ⟨113, _⟩ => ⟨S10000x2, .f32⟩
  | .hbm, ⟨114, _⟩ => ⟨S1x2, .f32⟩
  | .hbm, ⟨115, _⟩ => ⟨S10000x2, .f32⟩
  | .hbm, ⟨116, _⟩ => ⟨S10000x2, .f32⟩
  | .hbm, ⟨117, _⟩ => ⟨S2x10000, .f32⟩
  | .hbm, ⟨118, _⟩ => ⟨S10000x10000, .f32⟩
  | .local _ .vmem, ⟨0, _⟩ => ⟨S1000x1000, .f32⟩
  | .local _ .vmem, ⟨1, _⟩ => ⟨S1000x1000, .f32⟩
  | .local _ .vmem, ⟨2, _⟩ => ⟨S1000x256, .f32⟩
  | .local _ .vmem, ⟨3, _⟩ => ⟨S1000x256, .f32⟩
  | .local _ .vmem, ⟨4, _⟩ => ⟨S1000x256, .f32⟩
  | .local _ .vmem, ⟨5, _⟩ => ⟨S200x2, .f32⟩
  | .local _ .vmem, ⟨6, _⟩ => ⟨S200x2, .f32⟩
  | .local _ .vmem, ⟨7, _⟩ => ⟨S2x10000, .f32⟩
  | .local _ .vmem, ⟨8, _⟩ => ⟨S200x10000, .f32⟩
  | .local _ .vmem, ⟨9, _⟩ => ⟨S200x10000, .f32⟩
  | _, _ => ⟨S10000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x10000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  inb_S1000x1000_S1000x1000_0_0 : ∀ a, (![0, 0] : Fin 2 → Nat) a + S1000x1000.size a ≤ S1000x1000.size a
  h_S1000x1000 : 0 < S1000x1000.numel
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S170000x1_S170000x2_0_1 : S170000x1.BroadcastsInDim S170000x2 (![0, 1] : Fin 2 → Fin S170000x2.rank)
  bcast_S_S10000x2 : S_.BroadcastsInDim S10000x2 (![] : Fin 0 → Fin S10000x2.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  transposes_S10000x2_S2x10000_1_0 : S10000x2.Transposes [1, 0] S2x10000
  inb_S200x2_S200x2_0_0 : ∀ a, (![0, 0] : Fin 2 → Nat) a + S200x2.size a ≤ S200x2.size a
  h_S200x2 : 0 < S200x2.numel
  shapeCasts_S200x2_S200x2 : S200x2.ShapeCasts S200x2
  slices_S200x2_o0_0_S200x1 : S200x2.Slices ![0, 0] S200x1
  slices_S200x2_o0_1_S200x1 : S200x2.Slices ![0, 1] S200x1
  inb_S2x10000_S1x10000_0_0 : ∀ a, (![0, 0] : Fin 2 → Nat) a + S1x10000.size a ≤ S2x10000.size a
  h_S1x10000 : 0 < S1x10000.numel
  shapeCasts_S1x10000_S1x10000 : S1x10000.ShapeCasts S1x10000
  inb_S2x10000_S1x10000_1_0 : ∀ a, (![1, 0] : Fin 2 → Nat) a + S1x10000.size a ≤ S2x10000.size a
  broadcasts_S200x1_S200x10000 : S200x1.Broadcasts S200x10000
  broadcasts_S1x10000_S200x10000 : S1x10000.Broadcasts S200x10000
  inb_S200x10000_S200x10000_0_0 : ∀ a, (![0, 0] : Fin 2 → Nat) a + S200x10000.size a ≤ S200x10000.size a
  h_S200x10000 : 0 < S200x10000.numel
  dot_S1000x1000_S1000x256_S1000x256_1_0_0_1_n_n_wf : DotDims.WF S1000x1000 S1000x256 S1000x256 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  dot_S10000x256_S256x2_S10000x2_1_0_0_1_n_n_wf : DotDims.WF S10000x256 S256x2 S10000x2 [1] [0] [0] [1] [] []
  gather_S10000x2_S170000x1_S170000x2_1_0_n_n_0_1_12_wf : GatherDims.WF S10000x2 S170000x1 S170000x2 [1] [0] [] [0] [] 1 ![1, 2]
  scatter_S10000x2_S170000x1_S170000x2_1_0_0_1_wf : ScatterDims.WF S10000x2 S170000x1 S170000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1000.size a ≤ S10000x1000.size a
  hwx0_0 : ∀ i : grid0.Coords, EltTy.bits .f32 = 32 ∨ (Rect.block (s := S10000x1000) S1000x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S1000x256.size a
  hwx0_1 : ∀ i : grid0.Coords, EltTy.bits .f32 = 32 ∨ (Rect.block (s := S1000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x2.size a ≤ S10000x2.size a
  hwx1_0 : ∀ i : grid1.Coords, EltTy.bits .f32 = 32 ∨ (Rect.block (s := S10000x2) S200x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x10000.size a ≤ S2x10000.size a
  hwx1_1 : ∀ i : grid1.Coords, EltTy.bits .f32 = 32 ∨ (Rect.block (s := S2x10000) S2x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x10000.size a ≤ S10000x10000.size a
  hwx1_2 : ∀ i : grid1.Coords, EltTy.bits .f32 = 32 ∨ (Rect.block (s := S10000x10000) S200x10000.size (cc1_transform_2 i) (hinb1_2 i)).WholeWords (EltTy.packing .f32)

variable [Facts₀]

def dot_S1000x1000_S1000x256_S1000x256_1_0_0_1_n_n : DotDims S1000x1000 S1000x256 S1000x256 where
  lhsContracting := [1]
  rhsContracting := [0]
  lhsNonContracting := [0]
  rhsNonContracting := [1]
  lhsBatch := []
  rhsBatch := []
  wf := dot_S1000x1000_S1000x256_S1000x256_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf
def dot_S10000x256_S256x2_S10000x2_1_0_0_1_n_n : DotDims S10000x256 S256x2 S10000x2 where
  lhsContracting := [1]
  rhsContracting := [0]
  lhsNonContracting := [0]
  rhsNonContracting := [1]
  lhsBatch := []
  rhsBatch := []
  wf := dot_S10000x256_S256x2_S10000x2_1_0_0_1_n_n_wf
def gather_S10000x2_S170000x1_S170000x2_1_0_n_n_0_1_12 : GatherDims S10000x2 S170000x1 S170000x2 where
  offsetDims := [1]
  collapsedSliceDims := [0]
  operandBatchingDims := []
  startIndicesBatchingDims := []
  startIndexMap := [0]
  indexVectorDim := 1
  sliceSizes := ![1, 2]
  wf := gather_S10000x2_S170000x1_S170000x2_1_0_n_n_0_1_12_wf
def scatter_S10000x2_S170000x1_S170000x2_1_0_0_1 : ScatterDims S10000x2 S170000x1 S170000x2 where
  updateWindowDims := [1]
  insertedWindowDims := [0]
  scatterDimsToOperandDims := [0]
  indexVectorDim := 1
  wf := scatter_S10000x2_S170000x1_S170000x2_1_0_0_1_wf

abbrev win0_0 : Pipeline.Window sig grid0 :=
  Pipeline.Window.ofSpec (Memref.whole main_arg0) S1000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v88) S200x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S2x10000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v90) S200x10000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x1000 : Shape := ⟨2, ![10000, 1000]⟩
abbrev S2x160000 : Shape := ⟨2, ![2, 160000]⟩
abbrev S1000x256 : Shape := ⟨2, ![1000, 256]⟩
abbrev S256 : Shape := ⟨1, ![256]⟩
abbrev S256x2 : Shape := ⟨2, ![256, 2]⟩
abbrev S2 : Shape := ⟨1, ![2]⟩
abbrev S1x160000 : Shape := ⟨2, ![1, 160000]⟩
abbrev S160000 : Shape := ⟨1, ![160000]⟩
abbrev S10000x256 : Shape := ⟨2, ![10000, 256]⟩
abbrev S10000 : Shape := ⟨1, ![10000]⟩
abbrev S170000 : Shape := ⟨1, ![170000]⟩
abbrev S_ : Shape := ⟨0, ![]⟩
abbrev S170000x1 : Shape := ⟨2, ![170000, 1]⟩
abbrev S170000x256 : Shape := ⟨2, ![170000, 256]⟩
abbrev S1x256 : Shape := ⟨2, ![1, 256]⟩
abbrev S10000x2 : Shape := ⟨2, ![10000, 2]⟩
abbrev S170000x2 : Shape := ⟨2, ![170000, 2]⟩
abbrev S1x2 : Shape := ⟨2, ![1, 2]⟩
abbrev S10000x1 : Shape := ⟨2, ![10000, 1]⟩
abbrev S1x10000 : Shape := ⟨2, ![1, 10000]⟩
abbrev S10000x10000 : Shape := ⟨2, ![10000, 10000]⟩
abbrev S2x10000 : Shape := ⟨2, ![2, 10000]⟩

abbrev nBuf : Space → Nat
  | .hbm => 147
  | .vmem => 0
  | .smem => 0
  | _ => 0

abbrev hbmTy0_0 (i : Nat) : BufTy := match i % 128 with
  | 0 => ⟨S10000x1000, .f32⟩
  | 1 => ⟨S2x160000, .i32⟩
  | 2 => ⟨S1000x256, .f32⟩
  | 3 => ⟨S256, .f32⟩
  | 4 => ⟨S256x2, .f32⟩
  | 5 => ⟨S2, .f32⟩
  | 6 => ⟨S1x160000, .i32⟩
  | 7 => ⟨S160000, .i32⟩
  | 8 => ⟨S1x160000, .i32⟩
  | 9 => ⟨S160000, .i32⟩
  | 10 => ⟨S10000x256, .f32⟩
  | 11 => ⟨S10000, .i32⟩
  | 12 => ⟨S170000, .i32⟩
  | 13 => ⟨S170000, .i32⟩
  | 14 => ⟨S_, .f32⟩
  | 15 => ⟨S170000, .f32⟩
  | 16 => ⟨S_, .f32⟩
  | 17 => ⟨S10000, .f32⟩
  | 18 => ⟨S170000x1, .i32⟩
  | 19 => ⟨S10000, .f32⟩
  | 20 => ⟨S_, .f32⟩
  | 21 => ⟨S10000, .f32⟩
  | 22 => ⟨S10000, .f32⟩
  | 23 => ⟨S10000, .f32⟩
  | 24 => ⟨S_, .i32⟩
  | 25 => ⟨S170000, .i32⟩
  | 26 => ⟨S170000, .i1⟩
  | 27 => ⟨S_, .i32⟩
  | 28 => ⟨S170000, .i32⟩
  | 29 => ⟨S170000, .i32⟩
  | 30 => ⟨S170000, .i32⟩
  | 31 => ⟨S170000x1, .i32⟩
  | 32 => ⟨S170000, .f32⟩
  | 33 => ⟨S_, .i32⟩
  | 34 => ⟨S170000, .i32⟩
  | 35 => ⟨S170000, .i1⟩
  | 36 => ⟨S_, .i32⟩
  | 37 => ⟨S170000, .i32⟩
  | 38 => ⟨S170000, .i32⟩
  | 39 => ⟨S170000, .i32⟩
  | 40 => ⟨S170000x1, .i32⟩
  | 41 => ⟨S170000, .f32⟩
  | 42 => ⟨S170000, .f32⟩
  | 43 => ⟨S_, .i32⟩
  | 44 => ⟨S170000, .i32⟩
  | 45 => ⟨S170000, .i1⟩
  | 46 => ⟨S_, .i32⟩
  | 47 => ⟨S170000, .i32⟩
  | 48 => ⟨S170000, .i32⟩
  | 49 => ⟨S170000, .i32⟩
  | 50 => ⟨S170000x1, .i32⟩
  | 51 => ⟨S170000x256, .f32⟩
  | 52 => ⟨S170000x1, .f32⟩
  | 53 => ⟨S170000x256, .f32⟩
  | 54 => ⟨S170000x256, .f32⟩
  | 55 => ⟨S_, .f32⟩
  | 56 => ⟨S10000x256, .f32⟩
  | 57 => ⟨S170000x1, .i32⟩
  | 58 => ⟨S10000x256, .f32⟩
  | 59 => ⟨S1x256, .f32⟩
  | 60 => ⟨S10000x256, .f32⟩
  | 61 => ⟨S10000x256, .f32⟩
  | 62 => ⟨S_, .f32⟩
  | 63 => ⟨S10000x256, .f32⟩
  | 64 => ⟨S10000x256, .f32⟩
  | 65 => ⟨S10000x2, .f32⟩
  | 66 => ⟨S10000, .i32⟩
  | 67 => ⟨S170000, .i32⟩
  | 68 => ⟨S170000, .i32⟩
  | 69 => ⟨S_, .f32⟩
  | 70 => ⟨S170000, .f32⟩
  | 71 => ⟨S_, .f32⟩
  | 72 => ⟨S10000, .f32⟩
  | 73 => ⟨S170000x1, .i32⟩
  | 74 => ⟨S10000, .f32⟩
  | 75 => ⟨S_, .f32⟩
  | 76 => ⟨S10000, .f32⟩
  | 77 => ⟨S10000, .f32⟩
  | 78 => ⟨S10000, .f32⟩
  | 79 => ⟨S_, .i32⟩
  | 80 => ⟨S170000, .i32⟩
  | 81 => ⟨S170000, .i1⟩
  | 82 => ⟨S_, .i32⟩
  | 83 => ⟨S170000, .i32⟩
  | 84 => ⟨S170000, .i32⟩
  | 85 => ⟨S170000, .i32⟩
  | 86 => ⟨S170000x1, .i32⟩
  | 87 => ⟨S170000, .f32⟩
  | 88 => ⟨S_, .i32⟩
  | 89 => ⟨S170000, .i32⟩
  | 90 => ⟨S170000, .i1⟩
  | 91 => ⟨S_, .i32⟩
  | 92 => ⟨S170000, .i32⟩
  | 93 => ⟨S170000, .i32⟩
  | 94 => ⟨S170000, .i32⟩
  | 95 => ⟨S170000x1, .i32⟩
  | 96 => ⟨S170000, .f32⟩
  | 97 => ⟨S170000, .f32⟩
  | 98 => ⟨S_, .i32⟩
  | 99 => ⟨S170000, .i32⟩
  | 100 => ⟨S170000, .i1⟩
  | 101 => ⟨S_, .i32⟩
  | 102 => ⟨S170000, .i32⟩
  | 103 => ⟨S170000, .i32⟩
  | 104 => ⟨S170000, .i32⟩
  | 105 => ⟨S170000x1, .i32⟩
  | 106 => ⟨S170000x2, .f32⟩
  | 107 => ⟨S170000x1, .f32⟩
  | 108 => ⟨S170000x2, .f32⟩
  | 109 => ⟨S170000x2, .f32⟩
  | 110 => ⟨S_, .f32⟩
  | 111 => ⟨S10000x2, .f32⟩
  | 112 => ⟨S170000x1, .i32⟩
  | 113 => ⟨S10000x2, .f32⟩
  | 114 => ⟨S1x2, .f32⟩
  | 115 => ⟨S10000x2, .f32⟩
  | 116 => ⟨S10000x2, .f32⟩
  | 117 => ⟨S10000x2, .f32⟩
  | 118 => ⟨S_, .f32⟩
  | 119 => ⟨S10000, .f32⟩
  | 120 => ⟨S10000x1, .f32⟩
  | 121 => ⟨S1x10000, .f32⟩
  | 122 => ⟨S10000x10000, .f32⟩
  | 123 => ⟨S10000x10000, .f32⟩
  | 124 => ⟨S10000x10000, .f32⟩
  | 125 => ⟨S2x10000, .f32⟩
  | 126 => ⟨S10000x10000, .f32⟩
  | 127 => ⟨S_, .f32⟩
  | _ => ⟨S10000x1000, .f32⟩

abbrev hbmTy0_1 (i : Nat) : BufTy := match i % 128 with
  | 0 => ⟨S10000x10000, .f32⟩
  | 1 => ⟨S10000x10000, .f32⟩
  | 2 => ⟨S10000x10000, .f32⟩
  | 3 => ⟨S_, .f32⟩
  | 4 => ⟨S10000x10000, .f32⟩
  | 5 => ⟨S10000x10000, .f32⟩
  | 6 => ⟨S10000x10000, .f32⟩
  | 7 => ⟨S_, .f32⟩
  | 8 => ⟨S10000x10000, .f32⟩
  | 9 => ⟨S10000x10000, .f32⟩
  | 10 => ⟨S_, .f32⟩
  | 11 => ⟨S10000x10000, .f32⟩
  | 12 => ⟨S10000x10000, .f32⟩
  | 13 => ⟨S_, .f32⟩
  | 14 => ⟨S10000x10000, .f32⟩
  | 15 => ⟨S10000x10000, .f32⟩
  | 16 => ⟨S_, .f32⟩
  | 17 => ⟨S10000x10000, .f32⟩
  | 18 => ⟨S10000x10000, .f32⟩
  | _ => ⟨S10000x1000, .f32⟩

abbrev hbmTy (i : Nat) : BufTy := match i / 128 with
  | 0 => hbmTy0_0 i
  | 1 => hbmTy0_1 i
  | _ => ⟨S10000x1000, .f32⟩

abbrev bufTy : (tb : Table) → Fin (tcTables nBuf tb) → BufTy
  | .hbm, ⟨i, _⟩ => hbmTy i
  | _, _ => ⟨S10000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_18 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_19 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_20 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_21 : Ref sig .tc := ⟨.hbm, 135, rfl⟩
abbrev main_v104 : Ref sig .tc := ⟨.hbm, 136, rfl⟩
abbrev main_v105 : Ref sig .tc := ⟨.hbm, 137, rfl⟩
abbrev main_cst_22 : Ref sig .tc := ⟨.hbm, 138, rfl⟩
abbrev main_v106 : Ref sig .tc := ⟨.hbm, 139, rfl⟩
abbrev main_v107 : Ref sig .tc := ⟨.hbm, 140, rfl⟩
abbrev main_cst_23 : Ref sig .tc := ⟨.hbm, 141, rfl⟩
abbrev main_v108 : Ref sig .tc := ⟨.hbm, 142, rfl⟩
abbrev main_v109 : Ref sig .tc := ⟨.hbm, 143, rfl⟩
abbrev main_cst_24 : Ref sig .tc := ⟨.hbm, 144, rfl⟩
abbrev main_v110 : Ref sig .tc := ⟨.hbm, 145, rfl⟩
abbrev main_v111 : Ref sig .tc := ⟨.hbm, 146, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S170000x1_S170000x2_0_1 : S170000x1.BroadcastsInDim S170000x2 (![0, 1] : Fin 2 → Fin S170000x2.rank)
  bcast_S_S10000x2 : S_.BroadcastsInDim S10000x2 (![] : Fin 0 → Fin S10000x2.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  reducesTo_S10000x2_S10000_d1 : S10000x2.ReducesTo [1] S10000
  h_S_ : 0 < S_.numel
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x2_S2x10000_1_0 : S10000x2.Transposes [1, 0] S2x10000
  bcast_S_S10000x10000 : S_.BroadcastsInDim S10000x10000 (![] : Fin 0 → Fin S10000x10000.rank)
  dot_S10000x1000_S1000x256_S10000x256_1_0_0_1_n_n_wf : DotDims.WF S10000x1000 S1000x256 S10000x256 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  dot_S10000x256_S256x2_S10000x2_1_0_0_1_n_n_wf : DotDims.WF S10000x256 S256x2 S10000x2 [1] [0] [0] [1] [] []
  gather_S10000x2_S170000x1_S170000x2_1_0_n_n_0_1_12_wf : GatherDims.WF S10000x2 S170000x1 S170000x2 [1] [0] [] [0] [] 1 ![1, 2]
  scatter_S10000x2_S170000x1_S170000x2_1_0_0_1_wf : ScatterDims.WF S10000x2 S170000x1 S170000x2 [1] [0] [0] 1
  dot_S10000x2_S2x10000_S10000x10000_1_0_0_1_n_n_wf : DotDims.WF S10000x2 S2x10000 S10000x10000 [1] [0] [0] [1] [] []

variable [Facts₀]

def dot_S10000x1000_S1000x256_S10000x256_1_0_0_1_n_n : DotDims S10000x1000 S1000x256 S10000x256 where
  lhsContracting := [1]
  rhsContracting := [0]
  lhsNonContracting := [0]
  rhsNonContracting := [1]
  lhsBatch := []
  rhsBatch := []
  wf := dot_S10000x1000_S1000x256_S10000x256_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf
def dot_S10000x256_S256x2_S10000x2_1_0_0_1_n_n : DotDims S10000x256 S256x2 S10000x2 where
  lhsContracting := [1]
  rhsContracting := [0]
  lhsNonContracting := [0]
  rhsNonContracting := [1]
  lhsBatch := []
  rhsBatch := []
  wf := dot_S10000x256_S256x2_S10000x2_1_0_0_1_n_n_wf
def gather_S10000x2_S170000x1_S170000x2_1_0_n_n_0_1_12 : GatherDims S10000x2 S170000x1 S170000x2 where
  offsetDims := [1]
  collapsedSliceDims := [0]
  operandBatchingDims := []
  startIndicesBatchingDims := []
  startIndexMap := [0]
  indexVectorDim := 1
  sliceSizes := ![1, 2]
  wf := gather_S10000x2_S170000x1_S170000x2_1_0_n_n_0_1_12_wf
def scatter_S10000x2_S170000x1_S170000x2_1_0_0_1 : ScatterDims S10000x2 S170000x1 S170000x2 where
  updateWindowDims := [1]
  insertedWindowDims := [0]
  scatterDimsToOperandDims := [0]
  indexVectorDim := 1
  wf := scatter_S10000x2_S170000x1_S170000x2_1_0_0_1_wf
def dot_S10000x2_S2x10000_S10000x10000_1_0_0_1_n_n : DotDims S10000x2 S2x10000 S10000x10000 where
  lhsContracting := [1]
  rhsContracting := [0]
  lhsNonContracting := [0]
  rhsNonContracting := [1]
  lhsBatch := []
  rhsBatch := []
  wf := dot_S10000x2_S2x10000_S10000x10000_1_0_0_1_n_n_wf

class Facts : Prop extends Facts₀ where

variable [Facts]
-- ==== Proof.KernelRun.lean ====
/-
  The idealized kernel program's run with its two results named.

  @main is six segments: a stretch of host operations, the matrix-product region, three stretches of host
  operations, the pairwise region. The buffer contents at each boundary are a fold from the launch memory
  (`Gen.W0` … `Gen.W6`); after the last segment every unscoped buffer holds `Gen.W6`'s contents. Read at the two
  result buffers this names what the program returns; read at the arguments it says they end as launched.
-/
import proofs.«108645_j71648644431957_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the argument arrays as launched. -/
theorem run_named : θ_run defs (onTc (τ := τ) (main (F := F))) ⟨m, fun _ => 0, ρ⟩ (fun r => ∀ c : Dev nD,
      r.2.mem ((c.tc : Thread nD τ).loc main_v88) = W6 m ρ c (Proc.devRef .tc main_v88)
      ∧ r.2.mem ((c.tc : Thread nD τ).loc main_v90) = W6 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v88 (by decide)),
       h c _ (mem_uc main_v90 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.Spec.lean ====
/-
  The two array functions that both programs compute, stated once over literal shapes and the extended reals.

  * `xw a w`: the plain matrix product of a [10000, 1000] array with a [1000, 256] array: entry (r, n) is the sum over
    k of a (r, k) * w (k, n).
  * `q e`: from a [10000, 2] array of planar points, the [10000, 10000] array whose entry (i, j) is
    1 / (1 + 1/2 * sqrt (max (|e i|^2 + |e j|^2 - 2 * <e i, e j>, 0))), every operation the extended reals' own and the
    four float literals (2, 0, 1/2, 1) kept as their words: both programs spell the same words, so none is evaluated.
-/
import Idealize.ShloMosaic.PureOps.Ideal
import Idealize.ShloMosaic.Lib.ValueIdx

noncomputable section

namespace Cert.Spec

open Idealize.ShloMosaic Idealize.ShloMosaic.ValueIdx

/-- A rank-2 shape by its two literal extents. -/
abbrev Sh (a b : Nat) : Shape := ⟨2, ![a, b]⟩

/-- The matrix product, entry by entry. -/
def xw (a : (Sh 10000 1000).Idx → EReal) (w : (Sh 1000 256).Idx → EReal) : (Sh 10000 256).Idx → EReal :=
  fun i => ∑ k : Fin 1000, a (ix2 (n0 := 10000) (i 0) k) * w (ix2 (n1 := 256) k (i 1))

/-- Squared length of point `r`. -/
def sq (e : (Sh 10000 2).Idx → EReal) (r : Fin 10000) : EReal :=
  e (ix2 r (0 : Fin 2)) * e (ix2 r (0 : Fin 2)) + e (ix2 r (1 : Fin 2)) * e (ix2 r (1 : Fin 2))

/-- Inner product of points `r` and `s`. -/
def cross (e : (Sh 10000 2).Idx → EReal) (r s : Fin 10000) : EReal :=
  e (ix2 r (0 : Fin 2)) * e (ix2 s (0 : Fin 2)) + e (ix2 r (1 : Fin 2)) * e (ix2 s (1 : Fin 2))

/-- The similarity of points `r` and `s`: 1 / (1 + 1/2 * distance). -/
def qAt (e : (Sh 10000 2).Idx → EReal) (r s : Fin 10000) : EReal :=
  Ideal.div (Ideal.ofBits .f32 0x3F800000#32)
    (Ideal.ofBits .f32 0x3F800000#32 + Ideal.ofBits .f32 0x3F000000#32 *
      Ideal.sqrt (max ((sq e r + sq e s) - Ideal.ofBits .f32 0x40000000#32 * cross e r s) (Ideal.ofBits .f32 0x00000000#32)))

/-- The whole similarity array. -/
def q (e : (Sh 10000 2).Idx → EReal) : (Sh 10000 10000).Idx → EReal :=
  fun i => qAt e (i 0) (i 1)

end Cert.Spec

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.XwBlocks.lean ====
/-
  Region 0 of the program: a [10000, 1000] array times a [1000, 256] array, computed in ten row blocks of 1000 rows.

  Grid point t reads rows 1000 t … 1000 t + 999 of the left array and the whole right array, multiplies them on the
  extended reals — the change of float format on the way in is the identity there, and the product into the zero
  accumulator is the plain sum of products over the shared axis — and writes the result back as rows
  1000 t … 1000 t + 999 of the output. Row r of the output therefore lies in the block of point r / 1000, the ten
  blocks tile the output, and the output array ends as the matrix product, entry by entry.
-/
import proofs.«108645_j71648644431957_1_alg».proof.Proof.Gen.KernelIdeal.Frame
import proofs.«108645_j71648644431957_1_alg».proof.Proof.Spec
import proofs.«108645_j71648644431957_1_alg».proof.Proof.LibMatmulSum
import Idealize.ShloMosaic.Lib.Pipeline.Value
import Idealize.ShloMosaic.Lib.ValueIdx

noncomputable section

namespace Cert.KernelIdeal.XwBlocks

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access, as the constant function. -/
theorem hz : (![0, 0] : Fin 2 → Nat) = fun _ => 0 := funext fun a => by fin_cases a <;> rfl

/-! ## The block product at an index -/

/-- Entry (p, n) of the block product: the sum over the shared axis of the products of row p of the left block with
    column n of the right block. -/
theorem blockProduct_apply (x0 : Vec Ideal S1000x1000 .f32) (x1 : Vec Ideal S1000x256 .f32) (p : Fin 1000) (n : Fin 256) :
    k0_pay1 x0 x1 (ix2 p n) = ∑ k : Fin 1000, x0 (ix2 p k) * x1 (ix2 k n) := by
  unfold k0_pay1
  exact MatmulSum.matmul_zero_apply dot_S1000x1000_S1000x256_S1000x256_1_0_0_1_n_n rfl rfl rfl rfl rfl rfl none _ _ (ix2 p n)

/-- A block product whose left block's row p is row r of a, and whose right block's column n is column n of w, is at
    (p, n) entry (r, n) of the matrix product of a and w. -/
theorem blockProduct_eq_xw (a : (Cert.Spec.Sh 10000 1000).Idx → EReal) (w : (Cert.Spec.Sh 1000 256).Idx → EReal)
    (x0 : Vec Ideal S1000x1000 .f32) (x1 : Vec Ideal S1000x256 .f32)
    (p : Fin 1000) (n : Fin 256) (r : Fin 10000)
    (h0 : ∀ k : Fin 1000, x0 (ix2 p k) = a (ix2 r k))
    (h1 : ∀ k : Fin 1000, x1 (ix2 k n) = w (ix2 k n)) :
    k0_pay1 x0 x1 (ix2 p n) = Cert.Spec.xw a w (ix2 r n) := by
  rw [blockProduct_apply]
  show _ = ∑ k : Fin 1000, a (ix2 r k) * w (ix2 k n)
  exact Finset.sum_congr rfl fun k _ => by rw [h0 k, h1 k]

/-! ## The blocks a grid point reads -/

variable (V : (c : Dev nD) → (b : Ref sig .tc) → Buf (Elt Ideal) ((c : Thread nD τ).loc b))

/-- The block indices over the grid: the left array's row block moves with the output's, which is the point's number;
    every column block index, and both of the right array's, are zero. -/
theorem blockIndex_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- The left window's block at point t, at x, is the left array at the index whose coordinates are block index × block
    size + x's. -/
theorem leftBlock_apply (c : Dev nD) (t : Fin cfg0.N) (x : S1000x1000.Idx) (i : S10000x1000.Idx)
    (h0 : win0_0.index t (0 : Fin 2) * 1000 + 1 * (x 0).val = (i 0).val)
    (h1 : win0_0.index t (1 : Fin 2) * 1000 + 1 * (x 1).val = (i 1).val) :
    (iblk0 V c 0 t : Vec Ideal S1000x1000 .f32) x = (V c main_arg0 : S10000x1000.Idx → EReal) i := by
  unfold iblk0
  rw [View.read_apply]
  show (V c main_arg0 : S10000x1000.Idx → EReal) _ = _
  refine congrArg (V c main_arg0 : S10000x1000.Idx → EReal) (funext fun a => Fin.ext ?_)
  match a with
  | ⟨0, _⟩ => show win0_0.index t (0 : Fin 2) * 1000 + 1 * (x 0).val = (i 0).val; exact h0
  | ⟨1, _⟩ => show win0_0.index t (1 : Fin 2) * 1000 + 1 * (x 1).val = (i 1).val; exact h1

/-- The right window's block at point t, likewise. -/
theorem rightBlock_apply (c : Dev nD) (t : Fin cfg0.N) (x : S1000x256.Idx) (i : S1000x256.Idx)
    (h0 : win0_1.index t (0 : Fin 2) * 1000 + 1 * (x 0).val = (i 0).val)
    (h1 : win0_1.index t (1 : Fin 2) * 256 + 1 * (x 1).val = (i 1).val) :
    (iblk0 V c 1 t : Vec Ideal S1000x256 .f32) x = (V c main_arg2 : S1000x256.Idx → EReal) i := by
  unfold iblk0
  rw [View.read_apply]
  show (V c main_arg2 : S1000x256.Idx → EReal) _ = _
  refine congrArg (V c main_arg2 : S1000x256.Idx → EReal) (funext fun a => Fin.ext ?_)
  match a with
  | ⟨0, _⟩ => show win0_1.index t (0 : Fin 2) * 1000 + 1 * (x 0).val = (i 0).val; exact h0
  | ⟨1, _⟩ => show win0_1.index t (1 : Fin 2) * 256 + 1 * (x 1).val = (i 1).val; exact h1

/-! ## What a grid point writes back -/

/-- Point t writes back its block of the matrix product of the two arrays as the region finds them. -/
theorem flushed_eq (c : Dev nD) (t : Fin cfg0.N) :
    (dat0 V c).flushed 2 t
      = ((cfg0.win 2).blk t).view.read (Elt Ideal) (Cert.Spec.xw (V c main_arg0) (V c main_arg2)) := by
  show (cfg0.win 2).cut (grid0.coords t) ((dat0 V c).after 2 t) = _
  rw [after0_2]
  unfold out0_2
  rw [View.canon_unit_zero hz]
  simp only [View.ld_unit_zero (S := S1000x1000) hz, View.ld_unit_zero (S := S1000x256) hz]
  obtain ⟨e00, e01, e10, e11, e21, e20⟩ := blockIndex_facts t
  have ht : t.val < 10 := lt_of_lt_of_eq t.isLt N_0
  refine funext fun (j : S1000x256.Idx) => ?_
  obtain ⟨p, n, rfl⟩ : ∃ (p : Fin 1000) (n : Fin 256), j = ix2 p n := ⟨j 0, j 1, eq_ix2 j⟩
  have hp : p.val < 1000 := p.isLt
  -- the output row this entry is
  obtain ⟨r, hr⟩ : ∃ r : Fin 10000, r.val = win0_2.index t (0 : Fin 2) * 1000 + p.val := ⟨⟨_, by omega⟩, rfl⟩
  have hemb : ((cfg0.win 2).blk t).view.emb (ix2 p n) = (ix2 r n : S10000x256.Idx) := by
    funext a; apply Fin.ext
    match a with
    | ⟨0, _⟩ => show win0_2.index t (0 : Fin 2) * 1000 + 1 * p.val = r.val; omega
    | ⟨1, _⟩ => show win0_2.index t (1 : Fin 2) * 256 + 1 * n.val = n.val; omega
  show k0_pay1 (iblk0 V c 0 t) (iblk0 V c 1 t) (ix2 p n)
    = Cert.Spec.xw (V c main_arg0) (V c main_arg2) (((cfg0.win 2).blk t).view.emb (ix2 p n))
  rw [hemb]
  refine blockProduct_eq_xw _ _ _ _ p n r (fun k => ?_) (fun k => ?_)
  · refine leftBlock_apply V c t (ix2 p k) (ix2 r k) ?_ ?_
    · show win0_0.index t (0 : Fin 2) * 1000 + 1 * p.val = r.val; omega
    · show win0_0.index t (1 : Fin 2) * 1000 + 1 * k.val = k.val; omega
  · refine rightBlock_apply V c t (ix2 k n) (ix2 k n) ?_ ?_
    · show win0_1.index t (0 : Fin 2) * 1000 + 1 * k.val = k.val; omega
    · show win0_1.index t (1 : Fin 2) * 256 + 1 * n.val = n.val; omega

/-! ## The blocks tile the output -/

/-- An index of the output lies in point t's block iff each coordinate is in the block's range on its axis. -/
theorem mem_blk (t : Fin cfg0.N) (i : S10000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v4).slice (win0_2.rect t)).set ↔ _
  rw [View.set_slice_whole, Rect.mem_set_unit]
  exact Iff.rfl

/-- Row r of the output lies in the block of point r / 1000, and every point writes its block back. -/
theorem cover (i : S10000x256.Idx) :
    ∃ t : Fin cfg0.N, (cfg0.win 2).flush t = true ∧ i ∈ ((cfg0.win 2).blk t).view.set := by
  have hi0 : (i 0).val < 10000 := idx2_lt0 i
  have hi1 : (i 1).val < 256 := idx2_lt1 i
  obtain ⟨t, ht⟩ : ∃ t : Fin cfg0.N, t.val = (i 0).val / 1000 :=
    ⟨⟨(i 0).val / 1000, lt_of_lt_of_eq (by omega) N_0.symm⟩, rfl⟩
  obtain ⟨-, -, -, -, e21, e20⟩ := blockIndex_facts t
  refine ⟨t, flush0_2 t, ?_⟩
  rw [mem_blk]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 256 ≤ (i 1).val ∧ (i 1).val < win0_2.index t (1 : Fin 2) * 256 + 256
    omega

/-! ## The output array after the region -/

/-- After region 0 the output array is the matrix product of the two arrays the region finds. -/
theorem final_xw (c : Dev nD) :
    (dat0 V c).arrAt 2 cfg0.N = Cert.Spec.xw (V c main_arg0) (V c main_arg2) :=
  (dat0 V c).arrAt_eq_of_cover 2 _ (fun t _ => flushed_eq V c t) cover

end Cert.KernelIdeal.XwBlocks

end
-- ==== Proof.RegionAsDot.lean ====
/-
  Region 0 acts on the buffer contents exactly like one host matrix-product step.

  Region 0 reads the [10000, 1000] first argument in 10 row blocks and the whole [1000, 256] third argument, and writes the
  [10000, 256] array block by block; when it is left, that array holds the plain matrix product of the two (entry (r, n) the
  sum over k of a (r, k) * w (k, n)), its two input arrays are as they were found, and no other buffer is touched. The host
  step that writes the same product into the same array, with the reference program's own dimension numbers, leaves exactly
  these contents: at the output array because the host's product, entry by entry on the extended reals, is the same sum; at
  every other buffer because neither writes it.

  * dotOp: that host step.
  * dot_eq_xw: its product is the plain sum of products over the shared axis.
  * W2_eq: the contents when region 0 is left are the host step's result on the contents when it is entered.
-/
import proofs.«108645_j71648644431957_1_alg».proof.Proof.KernelRun
import proofs.«108645_j71648644431957_1_alg».proof.Proof.XwBlocks
import proofs.«108645_j71648644431957_1_alg».proof.Proof.Gen.ReferenceIdeal
import proofs.«108645_j71648644431957_1_alg».proof.Proof.LibMatmulSum
import proofs.«108645_j71648644431957_1_alg».proof.Proof.Spec
import Idealize.ShloMosaic.Lib.StableHlo.Run
import Idealize.ShloMosaic.PureOps.Ideal

noncomputable section

namespace Cert.KernelIdeal.RegionAsDot

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The host's matrix product of the first and third arguments into the region's output array, as one host step: the
    product's dimension numbers are the reference program's own record. -/
def dotOp : HloOp τ sig (Elt Ideal) :=
  StableHlo.binary main_arg0 main_arg2 main_v4
    ((fun l r => Host.dotGeneral (F := Ideal) (φ₁ := .f32) (φ₂ := .f32) Cert.ReferenceIdeal.dot_S10000x1000_S1000x256_S10000x256_1_0_0_1_n_n none l r) :
      (⟨S10000x1000, .f32⟩ : BufTy).Contents (Elt Ideal) → (⟨S1000x256, .f32⟩ : BufTy).Contents (Elt Ideal) → (⟨S10000x256, .f32⟩ : BufTy).Contents (Elt Ideal))

/-- The host step's product, entry by entry, is the plain sum of products over the shared axis. -/
theorem dot_eq_xw (l : (⟨S10000x1000, .f32⟩ : BufTy).Contents (Elt Ideal)) (r : (⟨S1000x256, .f32⟩ : BufTy).Contents (Elt Ideal)) :
    (Host.dotGeneral (F := Ideal) (φ₁ := .f32) (φ₂ := .f32) Cert.ReferenceIdeal.dot_S10000x1000_S1000x256_S10000x256_1_0_0_1_n_n none l r
      : (⟨S10000x256, .f32⟩ : BufTy).Contents (Elt Ideal)) = Cert.Spec.xw l r :=
  funext fun i => Idealize.ShloMosaic.MatmulSum.dotGeneral_apply (φ₁ := .f32) (φ₂ := .f32)
    Cert.ReferenceIdeal.dot_S10000x1000_S1000x256_S10000x256_1_0_0_1_n_n rfl rfl rfl rfl rfl rfl none .single l r i

/-- Region 0 leaves the buffers exactly as that one host step would: its two input arrays and every other buffer as it
    found them, its output array at the matrix product of the two inputs. -/
theorem W2_eq (c : Dev nD) : W2 m ρ c = dotOp.result (W1 m ρ c) := by
  funext b
  by_cases h : ∃ w, Proc.devRef (τ := τ) .tc (Pipeline.arrRef spec0 w) = b
  · obtain ⟨w, rfl⟩ := h
    rw [W2_arr]
    match w with
    | ⟨0, _⟩ =>
      exact (((dat0 (V1 m ρ) c).arrAt_in 0 rfl _).trans (A_eq0 (V1 m ρ) c 0)).trans
        (StableHlo.binary_result_ne main_arg0 main_arg2 main_v4 _ _ _ _ (W1 m ρ c) (r := main_arg0) (by decide)).symm
    | ⟨1, _⟩ =>
      exact (((dat0 (V1 m ρ) c).arrAt_in 1 rfl _).trans (A_eq0 (V1 m ρ) c 1)).trans
        (StableHlo.binary_result_ne main_arg0 main_arg2 main_v4 _ _ _ _ (W1 m ρ c) (r := main_arg2) (by decide)).symm
    | ⟨2, _⟩ =>
      refine (Cert.KernelIdeal.XwBlocks.final_xw (V1 m ρ) c).trans ?_
      refine Eq.trans ?_ (StableHlo.binary_result main_arg0 main_arg2 main_v4 _ _ _ _ (W1 m ρ c)).symm
      exact (dot_eq_xw (W1 m ρ c main_arg0) (W1 m ρ c main_arg2)).symm
  · have hW2 : W2 m ρ c b = W1 m ρ c b := by
      unfold W2 Pipeline.withArrays
      exact dif_neg h
    rw [hW2]
    refine (HloOp.result_of_not_mem _ _ ?_).symm
    show b ∉ ({Proc.devRef .tc main_v4} : Finset (DevRef τ sig))
    rw [Finset.mem_singleton]
    rintro rfl
    exact h ⟨2, rfl⟩

end Cert.KernelIdeal.RegionAsDot

end
-- ==== Proof.QBlocks.lean ====
/-
  Region 1's output array as one function of the arrays the region finds.

  The region's grid has 50 points. At point t the body reads rows 200 t … 200 t + 199 of a [10000, 2] array of planar points
  (its [200, 2] block) and the whole [2, 10000] array (one row per coordinate), and leaves in its [200, 10000] output block, at
  entry (p, j), 1 / (1 + 1/2 * sqrt (max (|r|^2 + |s|^2 - 2 <r, s>, 0))) with r the block's point p and s the point whose two
  coordinates are column j of the two rows. When the second array is the transpose of the first, s is point j of the first array
  and the entry is the similarity of points 200 t + p and j; the 50 blocks tile the [10000, 10000] array by rows, so the array
  ends as the whole similarity array.

  * pay_apply: the body's arithmetic at one entry, over variables, every operation the extended reals' own and the four float
    words kept as words.
  * block_apply: the same through the body's three loads (the whole [200, 2] block; rows 0 and 1 of the [2, 10000] block).
  * idx_facts, iblk_points, iblk_rows: where each input block sits in its array (block index times block size plus the
    coordinate inside the block).
  * flushed_eq, mem_blk, cover, final_q: what a point writes back, which entries it covers, and the array after the region.
-/
import proofs.«108645_j71648644431957_1_alg».proof.Proof.Gen.KernelIdeal.Frame
import proofs.«108645_j71648644431957_1_alg».proof.Proof.Spec
import Idealize.ShloMosaic.Lib.Pipeline.Value
import Idealize.ShloMosaic.Lib.ValueLayout
import Idealize.ShloMosaic.Lib.ValueIdx

noncomputable section

namespace Cert.KernelIdeal.QBlocks

open Idealize.ShloMosaic Idealize.ShloMosaic.TcCoe Idealize.ShloMosaic.ValueIdx Idealize.SL.Sem
open Idealize.ShloMosaic.Pipeline (Dat)
open Cert.KernelIdeal Cert.KernelIdeal.Gen

/-- A square root of a vector, read at an index. -/
theorem sqrt_apply {s : Shape} {φ : FTy} (a : FVec Ideal s φ) (i : s.Idx) : sqrt a i = Ideal.sqrt (a i) := rfl

/-- One column broadcast over many: an [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column o of an [a, 2] array, cut out as an [a, 1] array, read at row p. -/
theorem col_apply {α : Type} {a : ℕ} (o : Nat) (X : (⟨2, ![a, 2]⟩ : Shape).Idx → α)
    (h : (⟨2, ![a, 2]⟩ : Shape).Slices ![0, o] ⟨2, ![a, 1]⟩) (p : Fin a) (k : Fin 2) (hk : k.val = o) :
    extractStridedSlice ⟨2, ![a, 1]⟩ ![0, o] X h (ix2 p (0 : Fin 1)) = X (ix2 p k) :=
  slice2_axis1_apply o X h p (0 : Fin 1) k (by rw [hk]; rfl)

/-- The body's arithmetic at entry (p, j) of its block: from the two coordinates of the block's point p and the two
    coordinates of point j (one row of the transposed array each), 1 / (1 + 1/2 * sqrt (max (|r|^2 + |s|^2 - 2 <r, s>, 0))). -/
theorem pay_apply (x0 : Vec Ideal S200x2 .f32) (v4 v6 : Vec Ideal S1x10000 .f32) (p : Fin 200) (j : Fin 10000) :
    k1_pay1 x0 v4 v6 (ix2 p j) =
      Ideal.div (Ideal.ofBits .f32 0x3F800000#32)
        (Ideal.ofBits .f32 0x3F800000#32 + Ideal.ofBits .f32 0x3F000000#32 *
          Ideal.sqrt (max (((x0 (ix2 p (0 : Fin 2)) * x0 (ix2 p (0 : Fin 2)) + x0 (ix2 p (1 : Fin 2)) * x0 (ix2 p (1 : Fin 2)))
                + (v4 (ix2 (0 : Fin 1) j) * v4 (ix2 (0 : Fin 1) j) + v6 (ix2 (0 : Fin 1) j) * v6 (ix2 (0 : Fin 1) j)))
              - Ideal.ofBits .f32 0x40000000#32
                * (x0 (ix2 p (0 : Fin 2)) * v4 (ix2 (0 : Fin 1) j) + x0 (ix2 p (1 : Fin 2)) * v6 (ix2 (0 : Fin 1) j)))
            (Ideal.ofBits .f32 0x00000000#32))) := by
  unfold k1_pay1
  simp only [divf_apply, addf_apply, subf_apply, mulf_apply, maximumf_apply, sqrt_apply, broadcast_apply,
    shapeCast_self, broadcastTo_a1_ab_apply, broadcastTo_1b_ab_apply,
    col_apply 0 _ _ p (0 : Fin 2) rfl, col_apply 1 _ _ p (1 : Fin 2) rfl]
  rfl

/-! ## Blocks -/

theorem hz : (![0, 0] : Fin 2 → Nat) = fun _ => 0 := funext fun a => by fin_cases a <;> rfl

/-- Row o of a [2, 10000] array, loaded as a [1, 10000] vector, read at column j. -/
theorem ld_row (x1 : Vec Ideal S2x10000 .f32) (o : Nat) (inb : ∀ a, (![o, 0] : Fin 2 → Nat) a + S1x10000.size a ≤ S2x10000.size a)
    (k : Fin 2) (hk : k.val = o) (j : Fin 10000) :
    View.ld x1 (Rect.unit (s := S2x10000) ![o, 0] S1x10000.size inb) (ix2 (0 : Fin 1) j) = x1 (ix2 k j) := by
  show x1 ((Rect.unit (s := S2x10000) ![o, 0] S1x10000.size inb).idx (ix2 (0 : Fin 1) j)) = x1 (ix2 k j)
  refine congrArg x1 (funext fun a => Fin.ext ?_)
  match a with
  | ⟨0, _⟩ => show o + 1 * 0 = k.val; omega
  | ⟨1, _⟩ => show 0 + 1 * j.val = j.val; omega

/-- One entry of a block, over variables: when the [200, 2] block's row p holds point r of e and the [2, 10000]
    block's column j holds point j of e (one coordinate per row), the body's arithmetic at (p, j) is the similarity
    of points r and j. -/
theorem block_apply (e : (Cert.Spec.Sh 10000 2).Idx → EReal) (x0 : Vec Ideal S200x2 .f32) (x1 : Vec Ideal S2x10000 .f32)
    (r : Fin 10000) (p : Fin 200) (j : Fin 10000)
    (h0 : ∀ k : Fin 2, x0 (ix2 p k) = e (ix2 r k))
    (h1 : ∀ k : Fin 2, x1 (ix2 k j) = e (ix2 j k)) :
    k1_pay1 (View.ld x0 r1_0) (View.ld x1 r1_1) (View.ld x1 r1_2) (ix2 p j) = Cert.Spec.qAt e r j := by
  refine (pay_apply _ _ _ p j).trans ?_
  rw [View.ld_unit_zero (S := S200x2) hz, ld_row x1 0 _ (0 : Fin 2) rfl, ld_row x1 1 _ (1 : Fin 2) rfl]
  unfold Cert.Spec.qAt Cert.Spec.sq Cert.Spec.cross
  rw [h0 0, h0 1, h1 0, h1 1]

/-! ## The grid's index maps and the block reads -/

/-- The printed index maps, decided once over the grid: the [200, 2] input block moves with the output's block along the
    rows; every other block index is zero; the output's row-block index is the point's number. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val
    ∧ t.val ≤ 49 :=
  (by decide +kernel : ∀ t : Fin grid1.N, _)

variable (V : (c : Dev nD) → (b : Ref sig .tc) → Buf (Elt Ideal) ((c : Thread nD τ).loc b))

/-- The [200, 2] input block at point t holds rows 200 t … 200 t + 199 of the first array. -/
theorem iblk_points (c : Dev nD) (t : Fin cfg1.N) (p : Fin 200) (k : Fin 2) (r : Fin 10000)
    (hr : r.val = win1_0.index t (0 : Fin 2) * 200 + p.val) (h1 : win1_0.index t (1 : Fin 2) = 0) :
    (iblk1 V c 0 t : Vec Ideal S200x2 .f32) (ix2 p k) = (V c main_v88 : S10000x2.Idx → EReal) (ix2 r k) := by
  unfold iblk1
  rw [View.read_apply]
  show (V c main_v88 : S10000x2.Idx → EReal) (((cfg1.win 0).blk t).view.emb (ix2 p k)) = (V c main_v88 : S10000x2.Idx → EReal) (ix2 r k)
  refine congrArg (V c main_v88 : S10000x2.Idx → EReal) (funext fun a => Fin.ext ?_)
  match a with
  | ⟨0, _⟩ => show win1_0.index t (0 : Fin 2) * 200 + 1 * p.val = r.val; omega
  | ⟨1, _⟩ => show win1_0.index t (1 : Fin 2) * 2 + 1 * k.val = k.val; omega

/-- The [2, 10000] input block at every point is the whole second array. -/
theorem iblk_rows (c : Dev nD) (t : Fin cfg1.N) (k : Fin 2) (j : Fin 10000)
    (h0 : win1_1.index t (0 : Fin 2) = 0) (h1 : win1_1.index t (1 : Fin 2) = 0) :
    (iblk1 V c 1 t : Vec Ideal S2x10000 .f32) (ix2 k j) = (V c main_v89 : S2x10000.Idx → EReal) (ix2 k j) := by
  unfold iblk1
  rw [View.read_apply]
  show (V c main_v89 : S2x10000.Idx → EReal) (((cfg1.win 1).blk t).view.emb (ix2 k j)) = (V c main_v89 : S2x10000.Idx → EReal) (ix2 k j)
  refine congrArg (V c main_v89 : S2x10000.Idx → EReal) (funext fun a => Fin.ext ?_)
  match a with
  | ⟨0, _⟩ => show win1_1.index t (0 : Fin 2) * 2 + 1 * k.val = k.val; omega
  | ⟨1, _⟩ => show win1_1.index t (1 : Fin 2) * 10000 + 1 * j.val = j.val; omega

/-! ## What a point writes back, the cover, and the array -/

/-- What point t writes back is block t of the similarity array of the first input array. -/
theorem flushed_eq (c : Dev nD)
    (hT : ∀ (k : Fin 2) (j : Fin 10000), (V c main_v89 : S2x10000.Idx → EReal) (ix2 k j) = (V c main_v88 : S10000x2.Idx → EReal) (ix2 j k))
    (t : Fin cfg1.N) :
    (dat1 V c).flushed 2 t = ((cfg1.win 2).blk t).view.read (Elt Ideal) (Cert.Spec.q (V c main_v88)) := by
  show (cfg1.win 2).cut (grid1.coords t) ((dat1 V c).after 2 t) = _
  rw [after1_2]
  unfold out1_2
  rw [View.canon_unit_zero hz]
  obtain ⟨e0, e1, e2, e3, e4, e5, e6⟩ := idx_facts t
  funext y
  obtain ⟨p, j, rfl⟩ : ∃ (p : Fin 200) (j : Fin 10000), y = ix2 p j := ⟨y 0, y 1, eq_ix2 y⟩
  have hp : p.val < 200 := p.isLt
  have hr : win1_2.index t (0 : Fin 2) * 200 + p.val < 10000 := by omega
  have hemb : ((cfg1.win 2).blk t).view.emb (ix2 p j)
      = ix2 (⟨win1_2.index t (0 : Fin 2) * 200 + p.val, hr⟩ : Fin 10000) j := by
    funext a; apply Fin.ext
    match a with
    | ⟨0, _⟩ => show win1_2.index t (0 : Fin 2) * 200 + 1 * p.val = win1_2.index t (0 : Fin 2) * 200 + p.val; omega
    | ⟨1, _⟩ => show win1_2.index t (1 : Fin 2) * 10000 + 1 * j.val = j.val; omega
  show k1_pay1 (View.ld (iblk1 V c 0 t) r1_0) (View.ld (iblk1 V c 1 t) r1_1) (View.ld (iblk1 V c 1 t) r1_2) (ix2 p j)
      = Cert.Spec.q (V c main_v88) (((cfg1.win 2).blk t).view.emb (ix2 p j))
  rw [hemb]
  exact block_apply (V c main_v88) (iblk1 V c 0 t) (iblk1 V c 1 t) _ p j
    (fun k => iblk_points V c t p k _ (by show win1_2.index t (0 : Fin 2) * 200 + p.val = _; omega) e1)
    (fun k => (iblk_rows V c t k j e2 e3).trans (hT k j))

/-- An index of the array is in point t's block iff each coordinate is in the block's range on its axis. -/
theorem mem_blk (t : Fin cfg1.N) (i : S10000x10000.Idx) :
    i ∈ ((cfg1.win 2).blk t).view.set ↔ ∀ a : Fin 2, win1_2.index t a * S200x10000.size a ≤ (i a).val ∧ (i a).val < win1_2.index t a * S200x10000.size a + S200x10000.size a := by
  show i ∈ ((View.whole main_v90).slice (win1_2.rect t)).set ↔ _
  rw [View.set_slice_whole, Rect.mem_set_unit]
  exact Iff.rfl

/-- Every entry of the array lies in the block of the point that holds its row: row i is written at point i / 200. -/
theorem cover (i : S10000x10000.Idx) : ∃ t : Fin cfg1.N, (cfg1.win 2).flush t = true ∧ i ∈ ((cfg1.win 2).blk t).view.set := by
  have hi0 : (i 0).val < 10000 := (i 0).isLt
  have hi1 : (i 1).val < 10000 := (i 1).isLt
  have ht : (i 0).val / 200 < cfg1.N := by show (i 0).val / 200 < 50; omega
  obtain ⟨e0, e1, e2, e3, e4, e5, e6⟩ := idx_facts ⟨(i 0).val / 200, ht⟩
  refine ⟨⟨(i 0).val / 200, ht⟩, flush1_2 _, ?_⟩
  rw [mem_blk]
  intro a
  match a with
  | ⟨0, _⟩ =>
    show win1_2.index ⟨(i 0).val / 200, ht⟩ (0 : Fin 2) * 200 ≤ (i 0).val ∧ (i 0).val < win1_2.index ⟨(i 0).val / 200, ht⟩ (0 : Fin 2) * 200 + 200
    rw [e5]; show (i 0).val / 200 * 200 ≤ (i 0).val ∧ (i 0).val < (i 0).val / 200 * 200 + 200; omega
  | ⟨1, _⟩ =>
    show win1_2.index ⟨(i 0).val / 200, ht⟩ (1 : Fin 2) * 10000 ≤ (i 1).val ∧ (i 1).val < win1_2.index ⟨(i 0).val / 200, ht⟩ (1 : Fin 2) * 10000 + 10000
    rw [e4]; omega

/-- The array after the region: the similarity array of the first input array, when the second input array is the
    transpose of the first. -/
theorem final_q (c : Dev nD)
    (hT : ∀ (k : Fin 2) (j : Fin 10000), (V c main_v89 : S2x10000.Idx → EReal) (ix2 k j) = (V c main_v88 : S10000x2.Idx → EReal) (ix2 j k)) :
    (dat1 V c).arrAt 2 cfg1.N = Cert.Spec.q (V c main_v88) :=
  (dat1 V c).arrAt_eq_of_cover 2 _ (fun t _ => flushed_eq V c hT t) cover

end Cert.KernelIdeal.QBlocks

end
-- ==== Proof.Boundary.lean ====
/-
  The buffer contents at the boundaries of @main's segments, read at the buffers the two regions and the later host
  operations take their values from.

  * Region 1's second input is the transpose of its first: the last host operation before the region writes it from the
    first, and no operation after that writes either.
  * At region 0's exit: the region's output is the matrix product of the first and third arguments; the two index rows
    are the rows of the second argument, flattened; the remaining arguments are as launched.
-/
import proofs.«108645_j71648644431957_1_alg».proof.Proof.KernelRun
import proofs.«108645_j71648644431957_1_alg».proof.Proof.XwBlocks
import proofs.«108645_j71648644431957_1_alg».proof.Proof.Spec
import Idealize.ShloMosaic.Lib.StableHlo.Run
import Idealize.ShloMosaic.Lib.Pipeline.Value
import Idealize.ShloMosaic.PureOps.Ideal

noncomputable section

namespace Cert.KernelIdeal.Boundary

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## Region 1's second input is the transpose of its first -/

/-- The last host operation before region 1: the [10000, 2] array transposed into the [2, 10000] one. -/
abbrev transposeOp : HloOp τ sig (Elt Ideal) :=
  StableHlo.unary main_v88 main_v89 ((transpose S2x10000 [1, 0] · transposes_S10000x2_S2x10000_1_0) : (⟨S10000x2, .f32⟩ : BufTy).Contents (Elt Ideal) → (⟨S2x10000, .f32⟩ : BufTy).Contents (Elt Ideal))

/-- The stretch of host operations before region 1 ends with the transpose. -/
theorem hostOps1_2_split :
    (hostOps1_2 : List (HloOp τ sig (Elt Ideal))) = (hostOps1_2 : List (HloOp τ sig (Elt Ideal))).take 52 ++ [transposeOp] := by
  have h : (hostOps1_2 : List (HloOp τ sig (Elt Ideal))).drop 52 = [transposeOp] := rfl
  rw [← h]
  exact (List.take_append_drop 52 _).symm

/-- After the transpose, from any contents, entry (k, j) of its result is entry (j, k) of its operand. -/
theorem transposeOp_apply (P : Valuation τ sig (Elt Ideal)) (k : Fin 2) (j : Fin 10000) :
    (StableHlo.after [transposeOp] P (Proc.devRef .tc main_v89) : S2x10000.Idx → EReal) (ix2 k j)
      = (StableHlo.after [transposeOp] P (Proc.devRef .tc main_v88) : S10000x2.Idx → EReal) (ix2 j k) := by
  simp only [StableHlo.after_cons, StableHlo.after_nil]
  rw [StableHlo.unary_result, StableHlo.unary_result_ne _ _ _ _ _ _ (by decide)]
  exact transpose_apply [1, 0] _ transposes_S10000x2_S2x10000_1_0 (ix2 k j) (ix2 j k) (fun b => match b with
    | ⟨0, _⟩ => rfl
    | ⟨1, _⟩ => rfl)

/-- Entry (k, j) of region 1's second input is entry (j, k) of its first. -/
theorem v89_transposed (c : Dev nD) : ∀ (k : Fin 2) (j : Fin 10000),
    (V5 m ρ c main_v89 : S2x10000.Idx → EReal) (ix2 k j) = (V5 m ρ c main_v88 : S10000x2.Idx → EReal) (ix2 j k) := by
  intro k j
  have e : StableHlo.after hostOps1_2 (W4 m ρ c)
      = StableHlo.after [transposeOp] (StableHlo.after ((hostOps1_2 : List (HloOp τ sig (Elt Ideal))).take 52) (W4 m ρ c)) :=
    (congrArg (fun l => StableHlo.after l (W4 m ρ c)) hostOps1_2_split).trans (StableHlo.after_append _ _ _)
  show (StableHlo.after hostOps1_2 (W4 m ρ c) (Proc.devRef .tc main_v89) : S2x10000.Idx → EReal) (ix2 k j)
    = (StableHlo.after hostOps1_2 (W4 m ρ c) (Proc.devRef .tc main_v88) : S10000x2.Idx → EReal) (ix2 j k)
  rw [e]
  exact transposeOp_apply _ k j

/-! ## The values at region 0's exit -/

/-- A buffer the first stretch of host operations does not write holds, at region 0's entry, what it held at launch. -/
theorem W1_of_not_written (c : Dev nD) (r : Ref sig .tc) (h0 : r ≠ main_v0) (h1 : r ≠ main_v1) (h2 : r ≠ main_v2)
    (h3 : r ≠ main_v3) : W1 m ρ c (Proc.devRef .tc r) = m ((c.tc : Thread nD τ).loc r) :=
  (StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3⟩))).trans rfl

/-- Region 0's output at its exit: the matrix product of the first and third arguments as launched. -/
theorem W2_v4 (c : Dev nD) :
    W2 m ρ c (Proc.devRef .tc main_v4)
      = Cert.Spec.xw (m ((c.tc : Thread nD τ).loc main_arg0)) (m ((c.tc : Thread nD τ).loc main_arg2)) := by
  refine (W2_arr m ρ c 2).trans ?_
  rw [XwBlocks.final_xw (V1 m ρ) c]
  show Cert.Spec.xw (W1 m ρ c (Proc.devRef .tc main_arg0)) (W1 m ρ c (Proc.devRef .tc main_arg2)) = _
  rw [W1_of_not_written m ρ c main_arg0 (by decide) (by decide) (by decide) (by decide),
    W1_of_not_written m ρ c main_arg2 (by decide) (by decide) (by decide) (by decide)]

/-- The first index row at region 0's exit: row 0 of the second argument, flattened. -/
theorem W2_v1 (c : Dev nD) :
    W2 m ρ c (Proc.devRef .tc main_v1)
      = shapeCast S160000 (extractStridedSlice S1x160000 ![0, 0] (m ((c.tc : Thread nD τ).loc main_arg1))
          slices_S2x160000_S1x160000_0_0) shapeCasts_S1x160000_S160000 := by
  refine (W2_of_ne m ρ c main_v1 (by decide)).trans ?_
  show StableHlo.after hostOps0 (W0 m ρ c) (Proc.devRef .tc main_v1) = _
  after_results
  rfl

/-- The second index row at region 0's exit: row 1 of the second argument, flattened. -/
theorem W2_v3 (c : Dev nD) :
    W2 m ρ c (Proc.devRef .tc main_v3)
      = shapeCast S160000 (extractStridedSlice S1x160000 ![1, 0] (m ((c.tc : Thread nD τ).loc main_arg1))
          slices_S2x160000_S1x160000_1_0) shapeCasts_S1x160000_S160000 := by
  refine (W2_of_ne m ρ c main_v3 (by decide)).trans ?_
  show StableHlo.after hostOps0 (W0 m ρ c) (Proc.devRef .tc main_v3) = _
  after_results
  rfl

/-- The fourth, fifth and sixth arguments at region 0's exit are as launched. -/
theorem W2_arg3 (c : Dev nD) : W2 m ρ c (Proc.devRef .tc main_arg3) = m ((c.tc : Thread nD τ).loc main_arg3) :=
  (W2_of_ne m ρ c main_arg3 (by decide)).trans
    (W1_of_not_written m ρ c main_arg3 (by decide) (by decide) (by decide) (by decide))
theorem W2_arg4 (c : Dev nD) : W2 m ρ c (Proc.devRef .tc main_arg4) = m ((c.tc : Thread nD τ).loc main_arg4) :=
  (W2_of_ne m ρ c main_arg4 (by decide)).trans
    (W1_of_not_written m ρ c main_arg4 (by decide) (by decide) (by decide) (by decide))
theorem W2_arg5 (c : Dev nD) : W2 m ρ c (Proc.devRef .tc main_arg5) = m ((c.tc : Thread nD τ).loc main_arg5) :=
  (W2_of_ne m ρ c main_arg5 (by decide)).trans
    (W1_of_not_written m ρ c main_arg5 (by decide) (by decide) (by decide) (by decide))

end Cert.KernelIdeal.Boundary

end
-- ==== Proof.RefSide.lean ====
/-
  The reference program's two results, read at the ideal values.

  Its first matrix product is the plain sum of products (`Cert.Spec.xw`). Its last stretch computes, from the
  embedding `e` (its first result), the pairwise similarity: the squared lengths by a sum over the two coordinates
  started from zero, the inner products by a product with the transpose, then
  1 / (1 + 1/2 * (sqrt (max (|e i|^2 + |e j|^2 - 2 <e i, e j>, 0))) ^ 1). On the extended reals x ^ 1 = x for every
  x (the infinities included), a sum over two indices is the sum of its two terms, 0 + x = x, and the transpose read
  at (k, j) is `e` at (j, k): so the second result is `Cert.Spec.q` of the first.
-/
import proofs.«108645_j71648644431957_1_alg».proof.Proof.Gen.ReferenceIdeal.Read
import proofs.«108645_j71648644431957_1_alg».proof.Proof.Spec
import proofs.«108645_j71648644431957_1_alg».proof.Proof.LibMatmulSum
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx

/-- The first product of the reference is the plain matrix product. -/
theorem v4_eq (x0 : FVec Ideal S10000x1000 .f32) (x2 : FVec Ideal S1000x256 .f32) :
    val_main_v4 (F := Ideal) x0 x2 = Cert.Spec.xw x0 x2 := by
  funext i
  unfold val_main_v4 Cert.Spec.xw
  exact MatmulSum.dotGeneral_apply dot_S10000x1000_S1000x256_S10000x256_1_0_0_1_n_n rfl rfl rfl rfl rfl rfl none .single x0 x2 i

/-- On the extended reals the first power is the identity, at the infinities too. -/
theorem pow_one_word (x : EReal) : Ideal.pow x (Ideal.ofBits .f32 0x3F800000#32) = x := by
  rw [Ideal.ofBits_one_f32]
  induction x using EReal.rec with
  | bot => rfl
  | top => show (if (0 : EReal) < 1 then (⊤ : EReal) else if (1 : EReal) = 0 then 1 else 0) = ⊤; rw [if_pos zero_lt_one]
  | coe r => show ((Real.rpow r 1 : ℝ) : EReal) = (r : EReal); rw [Real.rpow_eq_pow, Real.rpow_one]

/-- The reference's second result is the similarity array of its first. -/
theorem v111_eq (x0 : FVec Ideal S10000x1000 .f32) (x1 : IVec S2x160000 32) (x2 : FVec Ideal S1000x256 .f32) (x3 : FVec Ideal S256 .f32) (x4 : FVec Ideal S256x2 .f32) (x5 : FVec Ideal S2 .f32) :
    val_main_v111 (F := Ideal) x0 x1 x2 x3 x4 x5 = Cert.Spec.q (val_main_v88 (F := Ideal) x0 x1 x2 x3 x4 x5) := by
  funext i
  obtain ⟨r, s, rfl⟩ : ∃ (r s : Fin 10000), i = ix2 r s := ⟨i 0, i 1, eq_ix2 i⟩
  simp only [val_main_v111_apply, val_main_v110_apply, val_main_cst_24_apply, val_main_v109_apply, val_main_v108_apply,
    val_main_cst_23_apply, val_main_v107_apply, val_main_v106_apply, val_main_cst_22_apply, val_main_v105_apply,
    val_main_v104_apply, val_main_cst_21_apply, val_main_v103_apply, val_main_v102_apply, val_main_v101_apply,
    val_main_cst_20_apply, val_main_v100_apply, val_main_v99_apply, val_main_v98_apply, val_main_cst_19_apply,
    val_main_v97_apply, val_main_v96_apply, val_main_v95_apply, val_main_v93_apply, val_main_v91_apply, val_main_v94_apply,
    val_main_v92_apply, val_main_v90_apply, val_main_v89_apply, val_main_cst_18_apply, Fin.sum_univ_two]
  generalize val_main_v88 (F := Ideal) x0 x1 x2 x3 x4 x5 = e
  have h1 : ∀ k : Fin 2, idx_main_v90 (idx_main_v91 (idx_main_v93 (ix2 r s))) k = ix2 r k := fun k =>
    funext fun a => by match a with | ⟨0, _⟩ => rfl | ⟨1, _⟩ => rfl
  have h2 : ∀ k : Fin 2, idx_main_v90 (idx_main_v92 (idx_main_v94 (ix2 r s))) k = ix2 s k := fun k =>
    funext fun a => by match a with | ⟨0, _⟩ => rfl | ⟨1, _⟩ => rfl
  have h3 : ∀ k : Fin 2, lidx_main_v97 (ix2 r s) k = ix2 r k := fun k =>
    funext fun a => by match a with | ⟨0, _⟩ => rfl | ⟨1, _⟩ => rfl
  have h4 : ∀ k : Fin 2, idx_main_v96 (ridx_main_v97 (ix2 r s) k) = ix2 s k := fun k =>
    funext fun a => by match a with | ⟨0, _⟩ => rfl | ⟨1, _⟩ => rfl
  rw [h1 0, h1 1, h2 0, h2 1, h3 0, h3 1, h4 0, h4 1]
  simp only [Ideal.hostDivf_def, Ideal.addf_def, Ideal.mulf_def, Ideal.hostPowf_def, Ideal.hostUnary_sqrt_def,
    Ideal.maximumf_def, Ideal.subf_def, Ideal.ofBits_def, pow_one_word]
  show _ = Cert.Spec.qAt e r s
  unfold Cert.Spec.qAt Cert.Spec.sq Cert.Spec.cross
  rw [Ideal.ofBits_zero_f32, zero_add, zero_add]

end Cert.ReferenceIdeal.RefValue

end
-- ==== Proof.Bridge.lean ====
/-
  The two programs compute the same two arrays.

  The kernel program's host side, once its first region is read as the one host matrix product it acts as
  (`RegionAsDot.W2_eq`), is a plain fold of host operations from the launch memory — operation for operation the
  reference's own list up to its first result: the same gathers, scatter-adds, broadcasts and the second product
  (whose precision attribute chooses roundings only, none at the ideal values). So the embedding the second region
  is entered with is the reference's first result, when the arguments agree (`emb_eq`). The second region leaves
  `Cert.Spec.q` of that embedding (`QBlocks.final_q`, its second input being the embedding's transpose), and the
  reference's second result is `Cert.Spec.q` of its first (`RefValue.v111_eq`): `q_eq`.
-/
import proofs.«108645_j71648644431957_1_alg».proof.Proof.KernelRun
import proofs.«108645_j71648644431957_1_alg».proof.Proof.RegionAsDot
import proofs.«108645_j71648644431957_1_alg».proof.Proof.QBlocks
import proofs.«108645_j71648644431957_1_alg».proof.Proof.Boundary
import proofs.«108645_j71648644431957_1_alg».proof.Proof.RefSide
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The second region's first input array is untouched by that region: at the end it holds what the region was
    entered with. -/
theorem W6_v88 (c : Dev nD) : W6 m ρ c (Proc.devRef .tc main_v88) = W5 m ρ c (Proc.devRef .tc main_v88) :=
  (W6_arr m ρ c 0).trans (((dat1 (V5 m ρ) c).arrAt_in 0 rfl _).trans (A_eq1 (V5 m ρ) c 0))

set_option maxRecDepth 400000 in
set_option maxHeartbeats 60000000 in
/-- The embedding the second region is entered with is the reference's first result, the arguments agreeing. -/
theorem emb_eq (c : Dev nD) (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W5 m ρ c (Proc.devRef .tc main_v88) = Cert.ReferenceIdeal.Value.res_main_v88 m' c := by
  show StableHlo.after hostOps1_2 (StableHlo.after hostOps1_1 (StableHlo.after hostOps1 (W2 m ρ c))) (Proc.devRef .tc main_v88) = _
  rw [Cert.KernelIdeal.RegionAsDot.W2_eq m ρ c]
  show StableHlo.after hostOps1_2 (StableHlo.after hostOps1_1 (StableHlo.after hostOps1
    ((Cert.KernelIdeal.RegionAsDot.dotOp).result (StableHlo.after hostOps0 (W0 m ρ c))))) (Proc.devRef .tc main_v88) = _
  unfold Cert.ReferenceIdeal.Value.res_main_v88
  rw [h0, h1, h2, h3, h4, h5]
  unfold Cert.KernelIdeal.RegionAsDot.dotOp
  after_results_simp
  rfl

/-- The kernel program's second result is the reference's, the arguments agreeing. -/
theorem q_eq (c : Dev nD) (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W6 m ρ c (Proc.devRef .tc main_v90) = Cert.ReferenceIdeal.Value.res_main_v111 m' c := by
  rw [Cert.ReferenceIdeal.Read.val_main_v111_eq, Cert.ReferenceIdeal.RefValue.v111_eq, ← Cert.ReferenceIdeal.Read.val_main_v88_eq,
    ← emb_eq m ρ m' c h0 h1 h2 h3 h4 h5]
  exact (W6_arr m ρ c 2).trans (Cert.KernelIdeal.QBlocks.final_q (V5 m ρ) c (Cert.KernelIdeal.Boundary.v89_transposed m ρ c))

end Cert.Bridge

end
-- ==== Proof.lean ====
/-
  The certificate of a two-layer graph convolution with a pairwise similarity: a Pallas program of two regions —
  the first layer's feature product (features · W1, 10 row blocks of 1000) and the similarity array
  q (i, j) = 1 / (1 + 1/2 · |e i − e j|) over 50 row blocks of 200 — against its plain jnp reference.

  Frames: the two kernel programs' are the generated frame certificates; the reference's is its generated run with the
  results dropped. The idealization rewrote nothing, so `preserves` is `True`.

  Algebraic: at the ideal values the kernel program's run is read with its two results named (`Named.run_named`), and
  the bridge shows them equal to the reference's when the arguments agree: the first region's blocks are the blocks
  of the one matrix product (a matrix-unit product into a zero accumulator is the sum of products, the rounding to
  bf16 on the way in is the identity), the host operations between the regions are the reference's own (degree
  normalisation, gather, scatter-add, bias, relu, the second product), and the second region's blocks are the blocks
  of the reference's similarity expression — whose squared lengths are a two-term sum started at zero, whose inner
  products are a product with the transpose, and whose first power is the identity on every extended real.
-/
import proofs.«108645_j71648644431957_1_alg».proof.Defs
import proofs.«108645_j71648644431957_1_alg».proof.Proof.Gen.Kernel
import proofs.«108645_j71648644431957_1_alg».proof.Proof.Gen.Kernel.Skeleton
import proofs.«108645_j71648644431957_1_alg».proof.Proof.Gen.Kernel.Launch
import proofs.«108645_j71648644431957_1_alg».proof.Proof.Gen.Kernel.Points
import proofs.«108645_j71648644431957_1_alg».proof.Proof.Gen.Kernel.Frame
import proofs.«108645_j71648644431957_1_alg».proof.Proof.Gen.KernelIdeal
import proofs.«108645_j71648644431957_1_alg».proof.Proof.Gen.KernelIdeal.Skeleton
import proofs.«108645_j71648644431957_1_alg».proof.Proof.Gen.KernelIdeal.Launch
import proofs.«108645_j71648644431957_1_alg».proof.Proof.Gen.KernelIdeal.Points
import proofs.«108645_j71648644431957_1_alg».proof.Proof.Gen.KernelIdeal.Frame
import proofs.«108645_j71648644431957_1_alg».proof.Proof.Gen.ReferenceIdeal
import proofs.«108645_j71648644431957_1_alg».proof.Proof.Gen.Pre_finite_inputs
import proofs.«108645_j71648644431957_1_alg».proof.Proof.Gen.ReferenceIdeal.Run
import proofs.«108645_j71648644431957_1_alg».proof.Proof.Gen.ReferenceIdeal.Read
import proofs.«108645_j71648644431957_1_alg».proof.Proof.KernelRun
import proofs.«108645_j71648644431957_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end, the kernel program's two results being the reference's when the arguments agree. -/
theorem algebraic : Cert.algebraic_KernelIdeal_ReferenceIdeal := by
  intro m ρ m' ρ' _ hagree
  refine ⟨fun c => Cert.KernelIdeal.Gen.W6 m ρ c (Proc.devRef .tc Cert.KernelIdeal.main_v88),
    fun c => Cert.KernelIdeal.Gen.W6 m ρ c (Proc.devRef .tc Cert.KernelIdeal.main_v90),
    Cert.KernelIdeal.Named.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5⟩ := hagree c
    exact ((Cert.Bridge.W6_v88 m ρ c).trans (Cert.Bridge.emb_eq m ρ m' c h0 h1 h2 h3 h4 h5)).symm
  · obtain ⟨h0, h1, h2, h3, h4, h5⟩ := hagree c
    exact (Cert.Bridge.q_eq m ρ m' c h0 h1 h2 h3 h4 h5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
